-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S8192x16 : Shape := ⟨2, ![8192, 16]⟩
abbrev S1x4096 : Shape := ⟨2, ![1, 4096]⟩
abbrev S1024x1024 : Shape := ⟨2, ![1024, 1024]⟩
abbrev S1024x16 : Shape := ⟨2, ![1024, 16]⟩
abbrev S1x1024 : Shape := ⟨2, ![1, 1024]⟩
abbrev S16x1024 : Shape := ⟨2, ![16, 1024]⟩

abbrev nBuf : Space → Nat
  | .hbm => 15
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S4096x16, .bf16⟩
  | .hbm, ⟨9, _⟩ => ⟨S4096x16, .f32⟩
  | .hbm, ⟨10, _⟩ => ⟨S8192x16, .f32⟩
  | .hbm, ⟨11, _⟩ => ⟨S8192x16, .bf16⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  transposes_S16x4096_S4096x16_1_0 : S16x4096.Transposes [1, 0] S4096x16
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S1024x1024_S1024x1024_S1024x1024_1_0_0_1_n_n_wf : DotDims.WF S1024x1024 S1024x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  A linear layer with a low-rank correction, one output entry at a time, over the extended reals:

      y = (Σ_d x_d · w_d + β) + (Σ_ρ (Σ_d x_d · a_{ρ,d}) · b_ρ) · 2

  for one row `x` of the activations (4096 entries), one row `w` of the dense weight, its bias entry `β`, the 16 rows
  `a_ρ` of the down-projection and the 16 entries `b_ρ` of one row of the up-projection. Both programs compute this
  entry; one of them splits the long sum over `d` into four consecutive stretches of 1024 entries and adds the stretches
  in order onto a zero. Addition of extended reals is associative and commutative, so the stretches' sums add up to the
  whole sum (`sum_stretches`) — no finiteness of the entries is needed.
-/
import Idealize.ShloMosaic.PureOps.Ideal
import Idealize.ShloMosaic.Lib.ValueIdx

noncomputable section

namespace Cert.LoraSpec

open Idealize.ShloMosaic

/-- The scale of the low-rank path: the float pattern of `2.0`, as both programs print it. -/
abbrev two : EReal := Ideal.ofBits .f32 0x40000000#32

/-- One output entry: the dense row product plus the bias entry, plus twice the low-rank path's entry. -/
def entry (x w : Fin 4096 → EReal) (β : EReal) (a : Fin 16 → Fin 4096 → EReal) (b : Fin 16 → EReal) : EReal :=
  ((∑ d : Fin 4096, x d * w d) + β) + (∑ ρ : Fin 16, (∑ d : Fin 4096, x d * a ρ d) * b ρ) * two

/-- Position `1024·s + d` of a 4096-long axis, for stretch `s < 4` and offset `d < 1024`. -/
abbrev at4 (s : Fin 4) (d : Fin 1024) : Fin 4096 := ⟨1024 * s.val + d.val, by have := s.isLt; have := d.isLt; omega⟩

/-- The grid runs over 8 row blocks, 4 column blocks and 4 stretches, the stretch fastest: point `t` is row block
    `t / 16`, column block `t / 4 % 4`, stretch `t % 4`. Row `1024·(t / 16) + p` of the 8192 flattened rows; -/
abbrev rowOf (t : Nat) (p : Fin 1024) : Fin 8192 := ⟨1024 * (t / 16 % 8) + p.val, by have := p.isLt; have := Nat.mod_lt (t / 16) (show 0 < 8 by decide); omega⟩
/-- column `1024·(t / 4 % 4) + q` of the 4096 output columns; -/
abbrev colOf (t : Nat) (q : Fin 1024) : Fin 4096 := ⟨1024 * (t / 4 % 4) + q.val, by have := q.isLt; have := Nat.mod_lt (t / 4) (show 0 < 4 by decide); omega⟩
/-- and the stretch of the contracted axis the point works on. -/
abbrev stretchOf (t : Nat) : Fin 4 := ⟨t % 4, Nat.mod_lt _ (by decide)⟩

/-- A sum over 4096 positions is the sum, over the four stretches, of each stretch's 1024 positions. -/
theorem sum_stretches {M : Type*} [AddCommMonoid M] (f : Fin 4096 → M) :
    ∑ s : Fin 4, ∑ d : Fin 1024, f (at4 s d) = ∑ k : Fin 4096, f k := by
  rw [← Fintype.sum_prod_type']
  refine Fintype.sum_equiv (finProdFinEquiv (m := 4) (n := 1024)) _ _ fun sd => ?_
  refine congrArg f (Fin.ext ?_)
  show 1024 * sd.1.val + sd.2.val = sd.2.val + 1024 * sd.1.val
  omega

end Cert.LoraSpec

end
-- ==== Proof.Result.lean ====
/-
  The whole result array [4, 2048, 4096] of both programs, as one function of the five argument arrays: entry
  `(β, s, o)` is the specification's entry for row `(β, s)` of the activations, row `o` of the dense weight and of the
  up-projection, and bias entry `o`.
-/
import proofs.«179416_j5506148073539_2_alg».proof.Proof.Spec

noncomputable section

namespace Cert.LoraSpec

open Idealize.ShloMosaic Idealize.ShloMosaic.ValueIdx

/-- The result array, index by index. -/
def result (x : (⟨3, ![4, 2048, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal := fun i =>
  entry (fun d => x (ix3 (i 0) (i 1) d)) (fun d => W (ix2 (i 2) d)) (b (ix1 (i 2))) (fun ρ d => A (ix2 ρ d))
    (fun ρ => B (ix2 (i 2) ρ))

theorem result_apply (x : (⟨3, ![4, 2048, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) (β : Fin 4) (s : Fin 2048) (o : Fin 4096) :
    result x W b A B (ix3 β s o)
      = entry (fun d => x (ix3 β s d)) (fun d => W (ix2 o d)) (b (ix1 o)) (fun ρ d => A (ix2 ρ d)) (fun ρ => B (ix2 o ρ)) := rfl

end Cert.LoraSpec

end
-- ==== Proof.RefSpec.lean ====
/-
  Two readings at an index, one for each program.

  The reference program computes, for the activations x (4 batches of 2048 rows of 4096 entries), the dense weight W,
  the bias b, the down-projection A (16 rows of 4096) and the up-projection B (4096 rows of 16),

      out[bb, s, o] = (Σ_d x[bb,s,d] · W[o,d] + b[o]) + (Σ_ρ (Σ_d x[bb,s,d] · A[ρ,d]) · B[o,ρ]) · 2 .

  Each of its ten operations reads, at an index, its operands at indices computed from that index: a contraction is a
  sum over the contracted coordinate of the left operand's entry times the right operand's entry, a broadcast repeats
  the entry of its operand along the new axes, and the additions and the product act entry by entry. Composing these
  readings from the result backwards gives the entry of the specification at row (bb, s) of the activations and
  row o of W, of b and of B. Over the extended reals the addition and the product of the float interface are the
  addition and the product of extended reals, and the float pattern of 2.0 is the specification's constant.

  The other program ends with a reshape of an 8192 × 4096 array into 4 × 2048 × 4096. A reshape keeps the row-major
  position of every entry; the position of (bb, s, o) in the result is (2048·bb + s)·4096 + o, which is the position of
  (2048·bb + s, o) in the operand, so the result at (bb, s, o) is the operand at row 2048·bb + s, column o.
-/
import proofs.«179416_j5506148073539_2_alg».proof.Proof.Gen.ReferenceIdeal.Read
import proofs.«179416_j5506148073539_2_alg».proof.Proof.Gen.KernelIdeal
import proofs.«179416_j5506148073539_2_alg».proof.Proof.Spec
import Idealize.ShloMosaic.Lib.ValueIdx
import Idealize.ShloMosaic.Lib.Pipeline.Value
import Idealize.ShloMosaic.PureOps.Ideal.Laws

noncomputable section

namespace Cert.ReferenceIdeal.LoraRef

open Cert.ReferenceIdeal Cert.ReferenceIdeal.Gen Cert.ReferenceIdeal.Read Cert.LoraSpec Idealize.ShloMosaic Idealize.ShloMosaic.ValueIdx

/-! ### The operand indices of each operation, by coordinates -/

/-- The dense contraction reads the activations at the result's row and the contracted position. -/
private theorem lidx_v0 (bb : Fin 4) (s : Fin 2048) (o k : Fin 4096) :
    lidx_main_v0 (ix3 bb s o) k = ix3 bb s k :=
  funext fun a => Fin.ext (by match a with | ⟨0, _⟩ => rfl | ⟨1, _⟩ => rfl | ⟨2, _⟩ => rfl)

/-- It reads the dense weight at the result's column and the contracted position. -/
private theorem ridx_v0 (bb : Fin 4) (s : Fin 2048) (o k : Fin 4096) :
    ridx_main_v0 (ix3 bb s o) k = ix2 o k :=
  funext fun a => Fin.ext (by match a with | ⟨0, _⟩ => rfl | ⟨1, _⟩ => rfl)

/-- The two broadcasts of the bias read it at the result's column. -/
private theorem idx_v12 (bb : Fin 4) (s : Fin 2048) (o : Fin 4096) :
    idx_main_v1 (idx_main_v2 (ix3 bb s o)) = ix1 o :=
  funext fun a => Fin.ext (by match a with | ⟨0, _⟩ => rfl)

/-- The up-projection's contraction reads the down-projected activations at the result's row and the rank position. -/
private theorem lidx_v5 (bb : Fin 4) (s : Fin 2048) (o : Fin 4096) (r : Fin 16) :
    lidx_main_v5 (ix3 bb s o) r = ix3 bb s r :=
  funext fun a => Fin.ext (by match a with | ⟨0, _⟩ => rfl | ⟨1, _⟩ => rfl | ⟨2, _⟩ => rfl)

/-- It reads the up-projection at the result's column and the rank position. -/
private theorem ridx_v5 (bb : Fin 4) (s : Fin 2048) (o : Fin 4096) (r : Fin 16) :
    ridx_main_v5 (ix3 bb s o) r = ix2 o r :=
  funext fun a => Fin.ext (by match a with | ⟨0, _⟩ => rfl | ⟨1, _⟩ => rfl)

/-- The down-projection's contraction reads the activations at its row and the contracted position. -/
private theorem lidx_v4 (bb : Fin 4) (s : Fin 2048) (r : Fin 16) (k : Fin 4096) :
    lidx_main_v4 (ix3 bb s r) k = ix3 bb s k :=
  funext fun a => Fin.ext (by match a with | ⟨0, _⟩ => rfl | ⟨1, _⟩ => rfl | ⟨2, _⟩ => rfl)

/-- It reads the down-projection at the rank position and the contracted position. -/
private theorem ridx_v4 (bb : Fin 4) (s : Fin 2048) (r : Fin 16) (k : Fin 4096) :
    ridx_main_v4 (ix3 bb s r) k = ix2 r k :=
  funext fun a => Fin.ext (by match a with | ⟨0, _⟩ => rfl | ⟨1, _⟩ => rfl)

/-- The reference program's result at (bb, s, o) is the specification's entry for row (bb, s) of the activations,
    row o of the dense weight, entry o of the bias, the down-projection, and row o of the up-projection. -/
theorem ref_entry (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) (bb : Fin 4) (s : Fin 2048) (o : Fin 4096) :
    val_main_v8 (F := Ideal) x0 x1 x2 x3 x4 (ix3 bb s o)
      = entry (fun d => x0 (ix3 bb s d)) (fun d => x1 (ix2 o d)) (x2 (ix1 o)) (fun ρ d => x3 (ix2 ρ d)) (fun ρ => x4 (ix2 o ρ)) := by
  rw [val_main_v8_apply, val_main_v3_apply, val_main_v7_apply, val_main_v0_apply, val_main_v2_apply, val_main_v1_apply,
    val_main_v5_apply, val_main_v6_apply, val_main_cst_apply]
  simp only [val_main_v4_apply, lidx_v0, ridx_v0, idx_v12, lidx_v5, ridx_v5, lidx_v4, ridx_v4]
  unfold entry
  rw [Ideal.addf_def, Ideal.addf_def, Ideal.mulf_def, Ideal.ofBits_def]

end Cert.ReferenceIdeal.LoraRef

namespace Cert.KernelIdeal.LoraTail

open Cert.KernelIdeal Cert.KernelIdeal.Facts₀ Idealize.ShloMosaic Idealize.ShloMosaic.ValueIdx

/-- The closing reshape at (bb, s, o) is its operand at row 2048·bb + s, column o: both have row-major position
    (2048·bb + s)·4096 + o. -/
theorem reshape_out (G : S8192x4096.Idx → EReal) (bb : Fin 4) (s : Fin 2048) (o : Fin 4096) :
    shapeCast S4x2048x4096 G shapeCasts_S8192x4096_S4x2048x4096 (ix3 bb s o)
      = G (ix2 (⟨2048 * bb.val + s.val, by have := bb.isLt; have := s.isLt; omega⟩ : Fin 8192) o) := by
  refine shapeCast_apply G shapeCasts_S8192x4096_S4x2048x4096 (ix3 bb s o) _ ?_
  rw [Shape.rowMajor_val_two, Shape.rowMajor_val_three]
  show (2048 * bb.val + s.val) * 4096 + o.val = (bb.val * 2048 + s.val) * 4096 + o.val
  omega

end Cert.KernelIdeal.LoraTail

end
-- ==== Proof.Cases.lean ====
/-
  What one grid point's body leaves behind, case by case, as pure terms of what it found.

  The body keeps a running block `acc` in a scratch buffer that survives from one grid point to the next. At every point it
  replaces `acc` by `acc + X·Wᵀ` for the point's activation block `X` and weight block `W` (the second payload); at the
  first stretch of a tile it first overwrites `acc` by the zero block (the first payload), so there the new contents are
  `0 + X·Wᵀ`; at the last stretch it also stores the finished tile `(acc + bias) + (XA·Bᵀ)·2` into the output block (the
  third payload), reading back the `acc` it has just written. Each store covers its whole buffer, so a buffer's final
  contents are the last store's payload, and a load after a covering store reads that store's payload.
-/
import proofs.«179416_j5506148073539_2_alg».proof.Proof.Gen.KernelIdeal.Frame
import Idealize.ShloMosaic.Lib.Pipeline.Value
import Idealize.ShloMosaic.Lib.Tactic

set_option maxRecDepth 16384

noncomputable section

namespace Cert.KernelIdeal.Lora

open Cert.KernelIdeal Cert.KernelIdeal.Gen
open Idealize.ShloMosaic Idealize.ShloMosaic.TcCoe Idealize.ShloMosaic.Tactic Idealize.SL.Sem

variable {F : FTy → Type} [FloatOps F]

/-- The stores and loads of the body all start at the origin of their buffer. -/
theorem hz : (![0, 0] : Fin 2 → Nat) = fun _ => 0 := funext fun a => by fin_cases a <;> rfl

/-- A middle stretch: the scratch ends at the accumulation step of what it held. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  rw [View.canon_unit_zero hz]
  simp only [View.readAt_eq_ld, h9.read_unread, h3.read_unread, h4.read_unread, View.ld_unit_zero (S := S1024x1024) hz]

/-- The first stretch: the scratch is zeroed, read back, and ends at the accumulation step of the zero block. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i) (x0 : Vec F S1024x1024 .bf16) (x1 : Vec F S1024x1024 .bf16) (x2 : Vec F S1024x16 .bf16) (x3 : Vec F S1024x16 .bf16) (x4 : Vec F S1x1024 .f32) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last stretch: the scratch again ends at the accumulation step of what it held; -/
theorem sout_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h9.read_unread, h3.read_unread, h4.read_unread, View.ld_unit_zero (S := S1024x1024) hz]

/-- and the output block is the finishing payload of that new scratch contents, the bias block and the two low-rank blocks. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 x4 (k0_pay2 xs0 x0 x1) := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz, View.readCov_unit_zero (S := S1024x1024) _ hz]
  simp only [View.readAt_eq_ld, h9.read_unread, h3.read_unread, h4.read_unread, h5.read_unread, h6.read_unread, h7.read_unread,
    View.ld_unit_zero (S := S1024x1024) hz, View.ld_unit_zero (S := S1024x16) hz, View.ld_unit_zero (S := S1x1024) hz]

end Cert.KernelIdeal.Lora

end
-- ==== Proof.Fold.lean ====
/-
  The running block over the four stretches of one output tile.

  Grid point `t` works on stretch `t % 4` of tile `t / 4`. The scratch block after point `t` is the zero block plus
  the products `X·Wᵀ` of the tile's stretches up to `t`, added in order: a fold that restarts at every multiple of four.
  At the tile's last point the output block is the finishing payload of that fold.
-/
import proofs.«179416_j5506148073539_2_alg».proof.Proof.Cases
import Idealize.ShloMosaic.Lib.Pipeline.Value
import Idealize.ShloMosaic.Lib.Tactic

set_option maxRecDepth 16384

noncomputable section

namespace Cert.KernelIdeal.Lora

open Cert.KernelIdeal Cert.KernelIdeal.Gen
open Idealize.ShloMosaic Idealize.ShloMosaic.TcCoe Idealize.ShloMosaic.Tactic Idealize.SL.Sem

variable {F : FTy → Type} [FloatOps F]

open Idealize.ShloMosaic.Pipeline (accAt eq_accAt_of_mod)

variable (m : (ℓ : Loc nD τ sig) → Buf (Elt F) ℓ) (c : Dev nD)

/-- At a tile's first point the scratch block restarts: the accumulation step of the zero block. -/
theorem acc_first (n : ℕ) (h : n < cfg0.N) (h0 : n % 4 = 0) :
    (outsAt0 m c n h).2 = k0_pay2 (k0_pay1 (F := F)) (iblk m c 0 ⟨n, h⟩) (iblk m c 1 ⟨n, h⟩) := by
  have h1 : ¬(⟨n, h⟩ : Fin cfg0.N).val % 4 = 3 := by dsimp only; omega
  have e := outsAt0_A m c ⟨n, h⟩ h0 h1
  dsimp only at e
  rw [e]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) ((hcond0_0 ⟨n, h⟩).mpr h0) (fun h' => h1 ((hcond0_1 ⟨n, h⟩).mp h')) (iblk m c 0 ⟨n, h⟩) (iblk m c 1 ⟨n, h⟩) (iblk m c 2 ⟨n, h⟩) (iblk m c 3 ⟨n, h⟩) (iblk m c 4 ⟨n, h⟩)

/-- At every other point it is the accumulation step of what the point before left. -/
theorem acc_step (n : ℕ) (h : n + 1 < cfg0.N) (h0 : ¬(n + 1) % 4 = 0) :
    (outsAt0 m c (n + 1) h).2
      = k0_pay2 (outsAt0 m c n (Nat.lt_of_succ_lt h)).2 (iblk m c 0 ⟨n + 1, h⟩) (iblk m c 1 ⟨n + 1, h⟩) := by
  by_cases h1 : (n + 1) % 4 = 3
  · have e := outsAt0_C m c ⟨n + 1, h⟩ h0 h1
    dsimp only at e
    rw [e]
    dsimp only
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun h' => h0 ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
  · have e := outsAt0_B m c ⟨n + 1, h⟩ h0 h1
    dsimp only at e
    rw [e]
    dsimp only
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun h' => h0 ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- At a tile's last point the output block is the finishing payload of the scratch block the point leaves. -/
theorem out_last (t : Fin cfg0.N) (h1 : t.val % 4 = 3) :
    (outsAt0 m c t.val t.isLt).1
      = k0_pay3 (iblk m c 2 t) (iblk m c 3 t) (iblk m c 4 t) (outsAt0 m c t.val t.isLt).2 := by
  have h0 : ¬t.val % 4 = 0 := by omega
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h1) (iblk m c 0 t) (iblk m c 1 t) (iblk m c 2 t) (iblk m c 3 t) (iblk m c 4 t) _,
    sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h' => h0 ((hcond0_0 t).mp h')) ((hcond0_1 t).mpr h1) (iblk m c 0 t) (iblk m c 1 t) (iblk m c 2 t) (iblk m c 3 t) (iblk m c 4 t) _]

/-- So the scratch block after any point is the fold over its tile's points up to it. -/
theorem acc_eq_fold (t : ℕ) (ht : t < cfg0.N) (h' : 4 * (t / 4) + t % 4 < cfg0.N) :
    (outsAt0 m c t ht).2
      = accAt (fun n h => k0_pay2 (k0_pay1 (F := F)) (iblk m c 0 ⟨n, h⟩) (iblk m c 1 ⟨n, h⟩))
          (fun n h acc => k0_pay2 acc (iblk m c 0 ⟨n, h⟩) (iblk m c 1 ⟨n, h⟩)) (4 * (t / 4)) (t % 4) h' :=
  eq_accAt_of_mod (fun n h => (outsAt0 m c n h).2) 4 _ _ (fun n h h0 => acc_first m c n h h0)
    (fun n h h0 => acc_step m c n h h0) (by decide) t ht h'

end Cert.KernelIdeal.Lora

end
-- ==== Proof.Payloads.lean ====
/-
  The three pure values the kernel body stores, read at one entry (p, q) of a 1024 x 1024 block, over the extended reals.

  * The first value is what the body writes into the accumulator at the first stretch of the contracted axis: the zero
    splat, so every entry is 0.
  * The second is the accumulator step: the old accumulator entry plus the product of a 1024 x 1024 block of the
    activations with the TRANSPOSE of a 1024 x 1024 block of the dense weight. A matrix product into the zero accumulator
    is the plain sum over the contracted coordinate d, and the transposed operand at (d, q) is the weight block at (q, d),
    so the entry is  acc(p, q) + sum_d x(p, d) * w(q, d).
  * The third is the final value of the block: the accumulator plus the bias row (a 1 x 1024 row repeated along the rows,
    so it contributes bias(0, q)) plus twice the low-rank product, the latter being the sum over the 16 rank coordinates
    r of xa(p, r) * b(q, r) (again the second operand enters transposed), times the constant 2.

  The shape casts in the body are all between equal shapes, so they are the identity; changes of float format do not
  occur inside these values, and at the extended reals every format is the same type anyway.
-/
import proofs.«179416_j5506148073539_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LoraPay

open Cert.KernelIdeal Cert.KernelIdeal.Gen Idealize.ShloMosaic Idealize.ShloMosaic.ValueIdx

/-! ## Where the two products read their operands

For a product with the left operand contracted on its second axis and the right on its first, output entry (p, q) and
contracted coordinate k read the left operand at (p, k) and the right at (k, q). The non-contracted coordinates are
copied from the output index. -/

theorem sq_lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem sq_rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

theorem lowrank_lhs_row (i : S1024x1024.Idx) (k : dot_S1024x16_S16x1024_S1024x1024_1_0_0_1_n_n.contr.Idx) :
    (dot_S1024x16_S16x1024_S1024x1024_1_0_0_1_n_n.lhsIdx i k 0).val = (i 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl

theorem lowrank_rhs_col (i : S1024x1024.Idx) (k : dot_S1024x16_S16x1024_S1024x1024_1_0_0_1_n_n.contr.Idx) :
    (dot_S1024x16_S16x1024_S1024x1024_1_0_0_1_n_n.rhsIdx i k 1).val = (i 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

/-! ## The two matrix products into the zero accumulator, at an entry -/

/-- A 1024 x 1024 by 1024 x 1024 product into the zero accumulator: entry (p, q) is the sum over the contracted
    coordinate d of a(p, d) * b(d, q). -/
theorem matmul_sq_apply (a b : FVec Ideal S1024x1024 .bf16) (p q : Fin 1024) :
    (matmul (F := Ideal) dot_S1024x1024_S1024x1024_S1024x1024_1_0_0_1_n_n none a b
        (constant (F := Ideal) S1024x1024 .f32 0x00000000#32)) (ix2 p q)
      = ∑ d : Fin 1024, a (ix2 p d) * b (ix2 d q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun ax => Fin.ext (by
      match ax with
      | ⟨0, _⟩ => exact sq_lhs_row _ _
      | ⟨1, _⟩ =>
        exact (dot_S1024x1024_S1024x1024_S1024x1024_1_0_0_1_n_n.lhsIdx_val_of_single rfl _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun ax => Fin.ext (by
      match ax with
      | ⟨0, _⟩ =>
        exact (dot_S1024x1024_S1024x1024_S1024x1024_1_0_0_1_n_n.rhsIdx_val_of_single rfl _ _).trans hk
      | ⟨1, _⟩ => exact sq_rhs_col _ _)
  rw [el, er]

/-- A 1024 x 16 by 16 x 1024 product into the zero accumulator: entry (p, q) is the sum over the 16 contracted
    coordinates r of a(p, r) * b(r, q). -/
theorem matmul_lowrank_apply (a : FVec Ideal S1024x16 .bf16) (b : FVec Ideal S16x1024 .bf16) (p q : Fin 1024) :
    (matmul (F := Ideal) dot_S1024x16_S16x1024_S1024x1024_1_0_0_1_n_n none a b
        (constant (F := Ideal) S1024x1024 .f32 0x00000000#32)) (ix2 p q)
      = ∑ r : Fin 16, a (ix2 p r) * b (ix2 r q) := by
  simp only [matmul]
  rw [Ideal.matmul_constant_zero_apply,
    ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q)
      ((contrEquiv1 dot_S1024x16_S16x1024_S1024x1024_1_0_0_1_n_n 16 rfl rfl).symm k) = ix2 p k :=
    funext fun ax => Fin.ext (by
      match ax with
      | ⟨0, _⟩ => exact lowrank_lhs_row _ _
      | ⟨1, _⟩ =>
        exact (dot_S1024x16_S16x1024_S1024x1024_1_0_0_1_n_n.lhsIdx_val_of_single rfl _ _).trans hk)
  have er : dot_S1024x16_S16x1024_S1024x1024_1_0_0_1_n_n.rhsIdx (ix2 p q)
      ((contrEquiv1 dot_S1024x16_S16x1024_S1024x1024_1_0_0_1_n_n 16 rfl rfl).symm k) = ix2 k q :=
    funext fun ax => Fin.ext (by
      match ax with
      | ⟨0, _⟩ =>
        exact (dot_S1024x16_S16x1024_S1024x1024_1_0_0_1_n_n.rhsIdx_val_of_single rfl _ _).trans hk
      | ⟨1, _⟩ => exact lowrank_rhs_col _ _)
  rw [el, er]

/-! ## The three stored values at an entry -/

/-- The value stored at the first stretch: the zero splat. -/
theorem pay1_apply (j : S1024x1024.Idx) : k0_pay1 (F := Ideal) j = (0 : EReal) := by
  unfold k0_pay1
  rw [shapeCast_self]
  exact Ideal.ofBits_zero_f32

/-- The accumulator step: the old entry plus the row of the activation block against the row of the weight block. -/
theorem pay2_apply (v3 : Vec Ideal S1024x1024 .f32) (v4 v6 : Vec Ideal S1024x1024 .bf16) (p q : Fin 1024) :
    k0_pay2 (F := Ideal) v3 v4 v6 (ix2 p q) = v3 (ix2 p q) + ∑ d : Fin 1024, v4 (ix2 p d) * v6 (ix2 q d) := by
  unfold k0_pay2
  rw [shapeCast_self, shapeCast_self, shapeCast_self, addf_apply, matmul_sq_apply]
  refine congrArg (v3 (ix2 p q) + ·) (Finset.sum_congr rfl fun d _ => ?_)
  rw [transpose_ix2_apply]

/-- The finished block: accumulator plus bias plus twice the low-rank product. -/
theorem pay3_apply (v17 v19 : Vec Ideal S1024x16 .bf16) (v23 : Vec Ideal S1x1024 .f32) (v27 : Vec Ideal S1024x1024 .f32) (p q : Fin 1024) :
    k0_pay3 (F := Ideal) v17 v19 v23 v27 (ix2 p q)
      = (v27 (ix2 p q) + v23 (ix2 (0 : Fin 1) q)) + (∑ ρ : Fin 16, v17 (ix2 p ρ) * v19 (ix2 q ρ)) * Ideal.ofBits .f32 0x40000000#32 := by
  unfold k0_pay3
  rw [shapeCast_self, shapeCast_self, shapeCast_self, shapeCast_self, addf_apply, addf_apply, mulf_apply,
    matmul_lowrank_apply, broadcastTo_1b_ab_apply, broadcast_apply]
  refine congrArg (fun s => (v27 (ix2 p q) + v23 (ix2 (0 : Fin 1) q)) + s * Ideal.ofBits .f32 0x40000000#32)
    (Finset.sum_congr rfl fun r _ => ?_)
  rw [transpose_ix2_apply]

end Cert.KernelIdeal.LoraPay

end
-- ==== Proof.Blocks.lean ====
/-
  What each input window of the kernel holds at a grid point, entry by entry, in terms of the arrays the program is
  launched with, over the extended reals.

  The grid has 8 x 4 x 4 points, the last axis fastest: point t is row block t / 16, column block t / 4 % 4 and
  stretch t % 4 of the contracted axis. A window's block at t is a rectangle of the window's array: entry y of the
  block is the array's entry at (block index) x (block size) + y on each axis, and the block indices are read off t
  once, over the whole grid.

  The arrays the windows read are written by the host before the kernel runs: the activations flattened from
  4 x 2048 x 4096 to 8192 x 4096 (row r is row r % 2048 of batch r / 2048), the dense weight, the up-projection, the
  product of the flattened activations with the transposed down-projection (entry (r, k) is the sum over d of
  x(r, d) * a(k, d)), and the bias as a 1 x 4096 row. The conversions to the narrower float type change nothing over
  the extended reals.
-/
import proofs.«179416_j5506148073539_2_alg».proof.Proof.Gen.KernelIdeal.Frame.Runs
import proofs.«179416_j5506148073539_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.LoraBlk

open Cert.KernelIdeal Cert.KernelIdeal.Gen Cert.LoraSpec Idealize.ShloMosaic Idealize.ShloMosaic.TcCoe Idealize.ShloMosaic.ValueIdx Idealize.SL.Sem

/-! ## The block indices over the grid -/

/-- The activations' window: row block `t / 16`, stretch `t % 4`. -/
theorem idx0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
/-- The dense weight's window: column block `t / 4 % 4`, stretch `t % 4`. -/
theorem idx1 : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
/-- The low-rank activations' window: row block `t / 16`, all 16 columns. -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
/-- The up-projection's window: column block `t / 4 % 4`, all 16 columns. -/
theorem idx3 : ∀ t : Fin cfg0.N, win0_3.index t (0 : Fin 2) = t.val / 4 % 4 ∧ win0_3.index t (1 : Fin 2) = 0 :=
  (by decide +kernel : ∀ t : Fin grid0.N, win0_3.index t (0 : Fin 2) = t.val / 4 % 4 ∧ win0_3.index t (1 : Fin 2) = 0)
/-- The bias row's window: the one row, column block `t / 4 % 4`. -/
theorem idx4 : ∀ t : Fin cfg0.N, win0_4.index t (0 : Fin 2) = 0 ∧ win0_4.index t (1 : Fin 2) = t.val / 4 % 4 :=
  (by decide +kernel : ∀ t : Fin grid0.N, win0_4.index t (0 : Fin 2) = 0 ∧ win0_4.index t (1 : Fin 2) = t.val / 4 % 4)

variable (m : (ℓ : Loc nD τ sig) → Buf (Elt Ideal) ℓ) (c : Dev nD)

/-! ## The windows' arrays as the host leaves them, at an index -/

/-- Row `r` of the activations flattened to 8192 rows: row `r % 2048` of batch `r / 2048`. -/
abbrev xrow (r : Fin 8192) (d : Fin 4096) : EReal :=
  m ((c : Thread nD τ).loc main_arg0) (ix3 (⟨r.val / 2048, by have := r.isLt; omega⟩ : Fin 4) (⟨r.val % 2048, Nat.mod_lt _ (by decide)⟩ : Fin 2048) d)

/-- The flattened activations at (r, d): row-major position r * 4096 + d of the 4 x 2048 x 4096 array. -/
theorem flat_apply (x : S4x2048x4096.Idx → EReal) (r : Fin 8192) (d : Fin 4096) :
    shapeCast S8192x4096 x shapeCasts_S4x2048x4096_S8192x4096 (ix2 r d)
      = x (ix3 (⟨r.val / 2048, by have := r.isLt; omega⟩ : Fin 4) (⟨r.val % 2048, Nat.mod_lt _ (by decide)⟩ : Fin 2048) d) := by
  refine shapeCast_apply _ _ _ _ ?_
  rw [Shape.rowMajor_val_three, Shape.rowMajor_val_two]
  show (r.val / 2048 * 2048 + r.val % 2048) * 4096 + d.val = r.val * 4096 + d.val
  have := Nat.div_add_mod r.val 2048
  omega

/-- A 4096-long array as one row: entry (0, o) is entry o. -/
theorem row_apply (b : S4096.Idx → EReal) (o : Fin 4096) :
    shapeCast S1x4096 b shapeCasts_S4096_S1x4096 (ix2 (0 : Fin 1) o) = b (ix1 o) := by
  refine shapeCast_apply _ _ _ _ ?_
  rw [Shape.rowMajor_val_one, Shape.rowMajor_val_two]
  show o.val = 0 * 4096 + o.val
  omega

/-- The host's product of a 8192 x 4096 array with a 4096 x 16 array, as a function of its operands. -/
def hdot (x0 : (⟨S8192x4096, .f32⟩ : BufTy).Contents (Elt Ideal)) (x1 : (⟨S4096x16, .f32⟩ : BufTy).Contents (Elt Ideal)) :
    (⟨S8192x16, .f32⟩ : BufTy).Contents (Elt Ideal) :=
  Host.dotGeneral (F := Ideal) (φ₁ := .f32) (φ₂ := .f32) dot_S8192x4096_S4096x16_S8192x16_1_0_0_1_n_n none x0 x1

/-- The operand positions the product reads at output (r, k) and contracted position d: (r, d) on the left, (d, k) on the right. -/
theorem hdot_lhs_0 (i : S8192x16.Idx) (q : dot_S8192x4096_S4096x16_S8192x16_1_0_0_1_n_n.contr.Idx) :
    (dot_S8192x4096_S4096x16_S8192x16_1_0_0_1_n_n.lhsIdx i q 0).val = (i 0).val := by
  unfold DotDims.lhsIdx
  rw [dif_neg (show ¬(0 : Fin S8192x4096.rank) ∈ dot_S8192x4096_S4096x16_S8192x16_1_0_0_1_n_n.lhsBatch by decide), dif_pos (show (0 : Fin S8192x4096.rank) ∈ dot_S8192x4096_S4096x16_S8192x16_1_0_0_1_n_n.lhsNonContracting by decide)]
  rfl
theorem hdot_lhs_1 (i : S8192x16.Idx) (q : dot_S8192x4096_S4096x16_S8192x16_1_0_0_1_n_n.contr.Idx) :
    (dot_S8192x4096_S4096x16_S8192x16_1_0_0_1_n_n.lhsIdx i q 1).val = (q ⟨0, by decide⟩).val :=
  dot_S8192x4096_S4096x16_S8192x16_1_0_0_1_n_n.lhsIdx_val_of_single rfl i q
theorem hdot_rhs_0 (i : S8192x16.Idx) (q : dot_S8192x4096_S4096x16_S8192x16_1_0_0_1_n_n.contr.Idx) :
    (dot_S8192x4096_S4096x16_S8192x16_1_0_0_1_n_n.rhsIdx i q 0).val = (q ⟨0, by decide⟩).val :=
  dot_S8192x4096_S4096x16_S8192x16_1_0_0_1_n_n.rhsIdx_val_of_single rfl i q
theorem hdot_rhs_1 (i : S8192x16.Idx) (q : dot_S8192x4096_S4096x16_S8192x16_1_0_0_1_n_n.contr.Idx) :
    (dot_S8192x4096_S4096x16_S8192x16_1_0_0_1_n_n.rhsIdx i q 1).val = (i 1).val := by
  unfold DotDims.rhsIdx
  rw [dif_neg (show ¬(1 : Fin S4096x16.rank) ∈ dot_S8192x4096_S4096x16_S8192x16_1_0_0_1_n_n.rhsBatch by decide), dif_pos (show (1 : Fin S4096x16.rank) ∈ dot_S8192x4096_S4096x16_S8192x16_1_0_0_1_n_n.rhsNonContracting by decide)]
  rfl

/-- Over the extended reals the host's product at (r, k) is the sum over the 4096 contracted positions. -/
theorem hdot_apply (x0 : (⟨S8192x4096, .f32⟩ : BufTy).Contents (Elt Ideal)) (x1 : (⟨S4096x16, .f32⟩ : BufTy).Contents (Elt Ideal))
    (r : Fin 8192) (k : Fin 16) :
    hdot x0 x1 (ix2 r k) = ∑ d : Fin 4096, x0 (ix2 r d) * x1 (ix2 d k) := by
  unfold hdot
  simp only [Host.dotGeneral]
  rw [Ideal.dotGeneral_apply, ← Equiv.sum_comp (ValueIdx.contrEquiv1 dot_S8192x4096_S4096x16_S8192x16_1_0_0_1_n_n 4096 rfl rfl).symm]
  refine Finset.sum_congr rfl fun d _ => ?_
  have hd := ValueIdx.contrEquiv1_symm_val dot_S8192x4096_S4096x16_S8192x16_1_0_0_1_n_n 4096 rfl rfl d
  have el : dot_S8192x4096_S4096x16_S8192x16_1_0_0_1_n_n.lhsIdx (ix2 r k) ((ValueIdx.contrEquiv1 dot_S8192x4096_S4096x16_S8192x16_1_0_0_1_n_n 4096 rfl rfl).symm d) = ix2 r d := funext fun a => Fin.ext (by
    match a with
    | ⟨0, _⟩ => exact hdot_lhs_0 _ _
    | ⟨1, _⟩ => exact (hdot_lhs_1 _ _).trans hd)
  have er : dot_S8192x4096_S4096x16_S8192x16_1_0_0_1_n_n.rhsIdx (ix2 r k) ((ValueIdx.contrEquiv1 dot_S8192x4096_S4096x16_S8192x16_1_0_0_1_n_n 4096 rfl rfl).symm d) = ix2 d k := funext fun a => Fin.ext (by
    match a with
    | ⟨0, _⟩ => exact (hdot_rhs_0 _ _).trans hd
    | ⟨1, _⟩ => exact hdot_rhs_1 _ _)
  rw [el, er]

/-- What the host has written into each window's array before the kernel runs. -/
theorem V_v1 : @Eq (S8192x4096.Idx → EReal) (V m c main_v1)
    (truncf (F := Ideal) .bf16 (shapeCast S8192x4096 (m ((c : Thread nD τ).loc main_arg0)) shapeCasts_S4x2048x4096_S8192x4096) bitsLt_bf16_f32) := by
  show StableHlo.after (hostOps0 (F := Ideal)) (fun b => m (c, b)) (Proc.devRef .tc main_v1) = _
  after_results
  rfl

theorem V_v2 : @Eq (S4096x4096.Idx → EReal) (V m c main_v2)
    (truncf (F := Ideal) .bf16 (m ((c : Thread nD τ).loc main_arg1)) bitsLt_bf16_f32) := by
  show StableHlo.after (hostOps0 (F := Ideal)) (fun b => m (c, b)) (Proc.devRef .tc main_v2) = _
  after_results

theorem V_v3 : @Eq (S4096x16.Idx → EReal) (V m c main_v3)
    (truncf (F := Ideal) .bf16 (m ((c : Thread nD τ).loc main_arg4)) bitsLt_bf16_f32) := by
  show StableHlo.after (hostOps0 (F := Ideal)) (fun b => m (c, b)) (Proc.devRef .tc main_v3) = _
  after_results

theorem V_v6 : @Eq (S8192x16.Idx → EReal) (V m c main_v6)
    (truncf (F := Ideal) .bf16 (hdot
      (shapeCast S8192x4096 (m ((c : Thread nD τ).loc main_arg0)) shapeCasts_S4x2048x4096_S8192x4096)
      (transpose S4096x16 [1, 0] (m ((c : Thread nD τ).loc main_arg3)) transposes_S16x4096_S4096x16_1_0)) bitsLt_bf16_f32) := by
  show StableHlo.after (hostOps0 (F := Ideal)) (fun b => m (c, b)) (Proc.devRef .tc main_v6) = _
  after_results
  rfl

theorem V_v7 : @Eq (S1x4096.Idx → EReal) (V m c main_v7)
    (shapeCast S1x4096 (m ((c : Thread nD τ).loc main_arg2)) shapeCasts_S4096_S1x4096) := by
  show StableHlo.after (hostOps0 (F := Ideal)) (fun b => m (c, b)) (Proc.devRef .tc main_v7) = _
  after_results
  rfl

/-- The flattened activations, as the kernel's first window finds them. -/
theorem V_v1_apply (r : Fin 8192) (d : Fin 4096) : (V m c main_v1 (ix2 r d) : EReal) = xrow m c r d :=
  (congrFun (V_v1 m c) (ix2 r d)).trans (flat_apply _ r d)

/-- The dense weight. -/
theorem V_v2_apply (o d : Fin 4096) :
    (V m c main_v2 (ix2 o d) : EReal) = m ((c : Thread nD τ).loc main_arg1) (ix2 o d) :=
  congrFun (V_v2 m c) (ix2 o d)

/-- The up-projection. -/
theorem V_v3_apply (o : Fin 4096) (k : Fin 16) :
    (V m c main_v3 (ix2 o k) : EReal) = m ((c : Thread nD τ).loc main_arg4) (ix2 o k) :=
  congrFun (V_v3 m c) (ix2 o k)

/-- The activations times the transposed down-projection: at (r, k) the sum over d of x(r, d) * a(k, d). -/
theorem V_v6_apply (r : Fin 8192) (k : Fin 16) :
    (V m c main_v6 (ix2 r k) : EReal) = ∑ d : Fin 4096, xrow m c r d * m ((c : Thread nD τ).loc main_arg3) (ix2 k d) := by
  refine (congrFun (V_v6 m c) (ix2 r k)).trans ?_
  refine (hdot_apply _ _ r k).trans ?_
  refine Finset.sum_congr rfl fun d _ => ?_
  rw [flat_apply]
  refine congrArg _ ?_
  exact transpose_apply _ _ _ (ix2 d k) (ix2 k d) (fun b => match b with | ⟨0, _⟩ => rfl | ⟨1, _⟩ => rfl)

/-- The bias as a one-row array. -/
theorem V_v7_apply (o : Fin 4096) :
    (V m c main_v7 (ix2 (0 : Fin 1) o) : EReal) = m ((c : Thread nD τ).loc main_arg2) (ix1 o) := by
  exact (congrFun (V_v7 m c) (ix2 (0 : Fin 1) o)).trans (row_apply _ o)

/-! ## The blocks: a window's array read through the block's rectangle -/

/-- The grid has 128 points. -/
theorem lt128 (t : Fin cfg0.N) : t.val < 128 := by
  have h := t.isLt
  have e : cfg0.N = 128 := N_0
  omega

/-- A block's entry is the window's array at the entry's place in the block's rectangle. -/
theorem read0 (t : Fin cfg0.N) (y : S1024x1024.Idx) :
    (iblk m c 0 t y : EReal) = V m c main_v1 (((cfg0.win 0).blk t).view.emb y) :=
  (View.read_apply _ _).trans (cast_eq _ _)
theorem read1 (t : Fin cfg0.N) (y : S1024x1024.Idx) :
    (iblk m c 1 t y : EReal) = V m c main_v2 (((cfg0.win 1).blk t).view.emb y) :=
  (View.read_apply _ _).trans (cast_eq _ _)
theorem read2 (t : Fin cfg0.N) (y : S1024x16.Idx) :
    (iblk m c 2 t y : EReal) = V m c main_v6 (((cfg0.win 2).blk t).view.emb y) :=
  (View.read_apply _ _).trans (cast_eq _ _)
theorem read3 (t : Fin cfg0.N) (y : S1024x16.Idx) :
    (iblk m c 3 t y : EReal) = V m c main_v3 (((cfg0.win 3).blk t).view.emb y) :=
  (View.read_apply _ _).trans (cast_eq _ _)
theorem read4 (t : Fin cfg0.N) (y : S1x1024.Idx) :
    (iblk m c 4 t y : EReal) = V m c main_v7 (((cfg0.win 4).blk t).view.emb y) :=
  (View.read_apply _ _).trans (cast_eq _ _)

/-- Entry (p, d) of the activations' block at `t` sits at row `1024 * (t / 16) + p`, column `1024 * (t % 4) + d`. -/
theorem emb0 (t : Fin cfg0.N) (p d : Fin 1024) :
    @Eq S8192x4096.Idx (((cfg0.win 0).blk t).view.emb (ix2 p d)) (ix2 (rowOf t.val p) (at4 (stretchOf t.val) d)) := by
  have ht := lt128 t
  funext a
  refine Fin.ext ?_
  match a with
  | ⟨0, _⟩ =>
    show win0_0.index t (0 : Fin 2) * 1024 + 1 * p.val = 1024 * (t.val / 16 % 8) + p.val
    rw [(idx0 t).1]; omega
  | ⟨1, _⟩ =>
    show win0_0.index t (1 : Fin 2) * 1024 + 1 * d.val = 1024 * (t.val % 4) + d.val
    rw [(idx0 t).2]; omega

theorem blk0 (t : Fin cfg0.N) (p d : Fin 1024) :
    (iblk m c 0 t (ix2 p d) : EReal) = xrow m c (rowOf t.val p) (at4 (stretchOf t.val) d) := by
  refine (read0 m c t (ix2 p d)).trans ?_
  rw [emb0 t p d]
  exact V_v1_apply m c _ _

/-- Entry (q, d) of the dense weight's block at `t` sits at row `1024 * (t / 4 % 4) + q`, column `1024 * (t % 4) + d`. -/
theorem emb1 (t : Fin cfg0.N) (q d : Fin 1024) :
    @Eq S4096x4096.Idx (((cfg0.win 1).blk t).view.emb (ix2 q d)) (ix2 (colOf t.val q) (at4 (stretchOf t.val) d)) := by
  funext a
  refine Fin.ext ?_
  match a with
  | ⟨0, _⟩ =>
    show win0_1.index t (0 : Fin 2) * 1024 + 1 * q.val = 1024 * (t.val / 4 % 4) + q.val
    rw [(idx1 t).1]; omega
  | ⟨1, _⟩ =>
    show win0_1.index t (1 : Fin 2) * 1024 + 1 * d.val = 1024 * (t.val % 4) + d.val
    rw [(idx1 t).2]; omega

theorem blk1 (t : Fin cfg0.N) (q d : Fin 1024) :
    (iblk m c 1 t (ix2 q d) : EReal) = m ((c : Thread nD τ).loc main_arg1) (ix2 (colOf t.val q) (at4 (stretchOf t.val) d)) := by
  refine (read1 m c t (ix2 q d)).trans ?_
  rw [emb1 t q d]
  exact V_v2_apply m c _ _

/-- Entry (p, ρ) of the low-rank activations' block at `t` sits at row `1024 * (t / 16) + p`, column ρ. -/
theorem emb2 (t : Fin cfg0.N) (p : Fin 1024) (ρ : Fin 16) :
    @Eq S8192x16.Idx (((cfg0.win 2).blk t).view.emb (ix2 p ρ)) (ix2 (rowOf t.val p) ρ) := by
  have ht := lt128 t
  funext a
  refine Fin.ext ?_
  match a with
  | ⟨0, _⟩ =>
    show win0_2.index t (0 : Fin 2) * 1024 + 1 * p.val = 1024 * (t.val / 16 % 8) + p.val
    rw [(idx2 t).1]; omega
  | ⟨1, _⟩ =>
    show win0_2.index t (1 : Fin 2) * 16 + 1 * ρ.val = ρ.val
    rw [(idx2 t).2]; omega

theorem blk2 (t : Fin cfg0.N) (p : Fin 1024) (ρ : Fin 16) :
    (iblk m c 2 t (ix2 p ρ) : EReal) = ∑ d : Fin 4096, xrow m c (rowOf t.val p) d * m ((c : Thread nD τ).loc main_arg3) (ix2 ρ d) := by
  refine (read2 m c t (ix2 p ρ)).trans ?_
  rw [emb2 t p ρ]
  exact V_v6_apply m c _ _

/-- Entry (q, ρ) of the up-projection's block at `t` sits at row `1024 * (t / 4 % 4) + q`, column ρ. -/
theorem emb3 (t : Fin cfg0.N) (q : Fin 1024) (ρ : Fin 16) :
    @Eq S4096x16.Idx (((cfg0.win 3).blk t).view.emb (ix2 q ρ)) (ix2 (colOf t.val q) ρ) := by
  funext a
  refine Fin.ext ?_
  match a with
  | ⟨0, _⟩ =>
    show win0_3.index t (0 : Fin 2) * 1024 + 1 * q.val = 1024 * (t.val / 4 % 4) + q.val
    rw [(idx3 t).1]; omega
  | ⟨1, _⟩ =>
    show win0_3.index t (1 : Fin 2) * 16 + 1 * ρ.val = ρ.val
    rw [(idx3 t).2]; omega

theorem blk3 (t : Fin cfg0.N) (q : Fin 1024) (ρ : Fin 16) :
    (iblk m c 3 t (ix2 q ρ) : EReal) = m ((c : Thread nD τ).loc main_arg4) (ix2 (colOf t.val q) ρ) := by
  refine (read3 m c t (ix2 q ρ)).trans ?_
  rw [emb3 t q ρ]
  exact V_v3_apply m c _ _

/-- Entry (0, q) of the bias row's block at `t` sits at column `1024 * (t / 4 % 4) + q`. -/
theorem emb4 (t : Fin cfg0.N) (q : Fin 1024) :
    @Eq S1x4096.Idx (((cfg0.win 4).blk t).view.emb (ix2 (0 : Fin 1) q)) (ix2 (0 : Fin 1) (colOf t.val q)) := by
  funext a
  refine Fin.ext ?_
  match a with
  | ⟨0, _⟩ =>
    show win0_4.index t (0 : Fin 2) * 1 + 1 * 0 = 0
    rw [(idx4 t).1]
  | ⟨1, _⟩ =>
    show win0_4.index t (1 : Fin 2) * 1024 + 1 * q.val = 1024 * (t.val / 4 % 4) + q.val
    rw [(idx4 t).2]; omega

theorem blk4 (t : Fin cfg0.N) (q : Fin 1024) :
    (iblk m c 4 t (ix2 (0 : Fin 1) q) : EReal) = m ((c : Thread nD τ).loc main_arg2) (ix1 (colOf t.val q)) := by
  refine (read4 m c t (ix2 (0 : Fin 1) q)).trans ?_
  rw [emb4 t q]
  exact V_v7_apply m c _

end Cert.KernelIdeal.LoraBlk

end
-- ==== Proof.Tile.lean ====
/-
  One output tile, entry by entry, over the extended reals.

  The tile of grid point `t` has rows `1024·(t / 16) + p` and columns `1024·(t / 4 % 4) + q`. Over the tile's four points
  the scratch block collects `0 + Σ_{s < 4} Σ_{d < 1024} x(row, 1024·s + d) · w(col, 1024·s + d)`, which is the dense row
  product `Σ_{k < 4096} x(row, k) · w(col, k)`: the four stretches partition the contracted axis, and sums of extended
  reals may be regrouped freely. The last point then adds the bias entry and twice the low-rank entry, whose blocks are
  the host's down-projected activations and the up-projection: the specification's entry at (row, col).
-/
import proofs.«179416_j5506148073539_2_alg».proof.Proof.Fold
import proofs.«179416_j5506148073539_2_alg».proof.Proof.Payloads
import proofs.«179416_j5506148073539_2_alg».proof.Proof.Blocks
import proofs.«179416_j5506148073539_2_alg».proof.Proof.Spec
import Idealize.ShloMosaic.Lib.ValueIdx
import Idealize.ShloMosaic.Lib.Pipeline.Value

set_option maxRecDepth 16384

noncomputable section

namespace Cert.KernelIdeal.Lora

open Cert.KernelIdeal Cert.KernelIdeal.Gen
open Idealize.ShloMosaic Idealize.ShloMosaic.TcCoe Idealize.ShloMosaic.Tactic Idealize.SL.Sem

open Cert.LoraSpec Idealize.ShloMosaic.ValueIdx Cert.KernelIdeal.LoraBlk Cert.KernelIdeal.LoraPay
open Idealize.ShloMosaic.Pipeline (accAt accAt_add_apply)

variable (m : (ℓ : Loc nD τ sig) → Buf (Elt Ideal) ℓ) (c : Dev nD)

/-- The product of point `n`'s activation and weight blocks at entry `i` of the tile: the part of the dense row product
    that runs over the point's stretch of the contracted axis. Stated for every natural `n` through the grid's closed
    forms, so that a sum over a tile's points needs no bounds. -/
def stretchProd (n : ℕ) (i : S1024x1024.Idx) : EReal :=
  ∑ d : Fin 1024, xrow m c (rowOf n (i 0)) (at4 (stretchOf n) d)
    * m ((c : Thread nD τ).loc main_arg1) (ix2 (colOf n (i 1)) (at4 (stretchOf n) d))

/-- The accumulation step at point `n` adds that point's stretch product. -/
theorem step_apply (n : ℕ) (h : n < cfg0.N) (acc : Vec Ideal S1024x1024 .f32) (i : S1024x1024.Idx) :
    k0_pay2 (F := Ideal) acc (iblk m c 0 ⟨n, h⟩) (iblk m c 1 ⟨n, h⟩) i = acc i + stretchProd m c n i := by
  obtain ⟨p, q, rfl⟩ : ∃ (p q : Fin 1024), i = ix2 p q := ⟨i 0, i 1, eq_ix2 i⟩
  rw [pay2_apply]
  refine congrArg (acc (ix2 p q) + ·) (Finset.sum_congr rfl fun d _ => ?_)
  rw [blk0 m c ⟨n, h⟩ p d, blk1 m c ⟨n, h⟩ q d]

/-- Within the tile of point `t`, the point of stretch `s` has the tile's rows and columns. -/
theorem stretchProd_tile (t s : ℕ) (hs : s < 4) (p q : Fin 1024) :
    stretchProd m c (4 * (t / 4) + s) (ix2 p q)
      = ∑ d : Fin 1024, xrow m c (rowOf t p) (at4 ⟨s, hs⟩ d)
          * m ((c : Thread nD τ).loc main_arg1) (ix2 (colOf t q) (at4 ⟨s, hs⟩ d)) := by
  have e0 : rowOf (4 * (t / 4) + s) p = rowOf t p := Fin.ext (by show 1024 * ((4 * (t / 4) + s) / 16 % 8) + p.val = 1024 * (t / 16 % 8) + p.val; omega)
  have e1 : colOf (4 * (t / 4) + s) q = colOf t q := Fin.ext (by show 1024 * ((4 * (t / 4) + s) / 4 % 4) + q.val = 1024 * (t / 4 % 4) + q.val; omega)
  have e2 : stretchOf (4 * (t / 4) + s) = ⟨s, hs⟩ := Fin.ext (by show (4 * (t / 4) + s) % 4 = s; omega)
  unfold stretchProd
  show ∑ d : Fin 1024, xrow m c (rowOf (4 * (t / 4) + s) p) (at4 (stretchOf (4 * (t / 4) + s)) d)
    * m ((c : Thread nD τ).loc main_arg1) (ix2 (colOf (4 * (t / 4) + s) q) (at4 (stretchOf (4 * (t / 4) + s)) d)) = _
  rw [e0, e1, e2]

/-- The scratch block after a tile's last point: the dense row product over the whole contracted axis. -/
theorem acc_last (t : Fin cfg0.N) (h3 : t.val % 4 = 3) (p q : Fin 1024) :
    (outsAt0 m c t.val t.isLt).2 (ix2 p q)
      = ∑ k : Fin 4096, xrow m c (rowOf t.val p) k * m ((c : Thread nD τ).loc main_arg1) (ix2 (colOf t.val q) k) := by
  have h' : 4 * (t.val / 4) + t.val % 4 < cfg0.N := by have := t.isLt; omega
  rw [acc_eq_fold m c t.val t.isLt h']
  rw [accAt_add_apply _ _ (fun _ => (0 : EReal)) (stretchProd m c) (4 * (t.val / 4)) 3
    (fun h i => by rw [step_apply m c _ h]; exact congrArg (· + _) (pay1_apply i))
    (fun n h acc i _ _ => step_apply m c n h acc i) (t.val % 4) (by omega) h' (ix2 p q)]
  rw [h3, zero_add, Finset.sum_range, Fin.sum_univ_four]
  rw [← sum_stretches (fun k => xrow m c (rowOf t.val p) k * m ((c : Thread nD τ).loc main_arg1) (ix2 (colOf t.val q) k)),
    Fin.sum_univ_four]
  exact congrArg₂ (· + ·) (congrArg₂ (· + ·) (congrArg₂ (· + ·) (stretchProd_tile m c t.val 0 (by decide) p q)
    (stretchProd_tile m c t.val 1 (by decide) p q)) (stretchProd_tile m c t.val 2 (by decide) p q))
    (stretchProd_tile m c t.val 3 (by decide) p q)

/-- The region's result array [8192, 4096]: entry `(r, o)` is the specification's entry of row `r` of the flattened
    activations and row `o` of the dense weight, the bias and the up-projection. -/
def G8 : Buf (Elt Ideal) ((c : Thread nD τ).loc main_v8) := fun j =>
  entry (xrow m c (j 0)) (fun d => m ((c : Thread nD τ).loc main_arg1) (ix2 (j 1) d))
    (m ((c : Thread nD τ).loc main_arg2) (ix1 (j 1))) (fun ρ d => m ((c : Thread nD τ).loc main_arg3) (ix2 ρ d))
    (fun ρ => m ((c : Thread nD τ).loc main_arg4) (ix2 (j 1) ρ))

/-- The tile a last-stretch point leaves in the output block is that tile of the result array. -/
theorem tile_eq (t : Fin cfg0.N) (h3 : t.val % 4 = 3) (p q : Fin 1024) :
    (outsAt0 m c t.val t.isLt).1 (ix2 p q) = G8 m c (ix2 (rowOf t.val p) (colOf t.val q)) := by
  rw [out_last m c t h3, pay3_apply, acc_last m c t h3 p q, blk4 m c t q]
  show _ = entry _ _ _ _ _
  unfold entry
  refine congrArg (_ + · * _) (Finset.sum_congr rfl fun ρ _ => ?_)
  rw [blk2 m c t p ρ, blk3 m c t q ρ]
  rfl

end Cert.KernelIdeal.Lora

end
-- ==== Proof.OutBlock.lean ====
/-
  Where the output window's blocks sit in the 8192 × 4096 result array.

  Grid point `t` (row block `t / 16`, column block `t / 4 % 4`, stretch `t % 4`) owns the 1024 × 1024 tile whose entry
  `(p, q)` is entry `(1024·(t / 16) + p, 1024·(t / 4 % 4) + q)` of the array. Only a tile's last stretch `t % 4 = 3`
  writes the tile back, and the 8 × 4 tiles written back that way cover every entry of the array.
-/
import proofs.«179416_j5506148073539_2_alg».proof.Proof.Spec
import proofs.«179416_j5506148073539_2_alg».proof.Proof.Gen.KernelIdeal.Frame
import Idealize.ShloMosaic.Lib.Pipeline.Value
import Idealize.ShloMosaic.Lib.Tactic
import Idealize.ShloMosaic.Lib.ValueIdx
set_option maxRecDepth 16384

noncomputable section

namespace Cert.KernelIdeal.Lora

open Cert.KernelIdeal Cert.KernelIdeal.Gen
open Idealize.ShloMosaic Idealize.ShloMosaic.TcCoe Idealize.ShloMosaic.Tactic Idealize.SL.Sem

variable {F : FTy → Type} [FloatOps F]

open Cert.LoraSpec Idealize.ShloMosaic.ValueIdx

/-- The output window's block indices at a grid point, decided once over the grid. -/
theorem idx5 : ∀ t : Fin cfg0.N, win0_5.index t (0 : Fin 2) = t.val / 16 ∧ win0_5.index t (1 : Fin 2) = t.val / 4 % 4 :=
  (by decide +kernel : ∀ t : Fin grid0.N, _)

/-- Entry `(p, q)` of point `t`'s tile of an array is the array's entry at the tile's row and column offsets. -/
theorem read5 (c : Dev nD) (G : Buf (Elt F) ((c : Thread nD τ).loc main_v8)) (t : Fin cfg0.N) (p q : Fin 1024) :
    ((cfg0.win 5).blk t).view.read (Elt F) G (ix2 p q) = G (ix2 (rowOf t.val p) (colOf t.val q)) := by
  have hN : t.val < 128 := lt_of_lt_of_eq t.isLt N_0
  obtain ⟨e0, e1⟩ := idx5 t
  rw [View.read_apply]
  refine congrArg G (funext fun a => Fin.ext ?_)
  match a with
  | ⟨0, _⟩ => show win0_5.index t (0 : Fin 2) * 1024 + 1 * p.val = 1024 * (t.val / 16 % 8) + p.val; rw [e0]; omega
  | ⟨1, _⟩ => show win0_5.index t (1 : Fin 2) * 1024 + 1 * q.val = 1024 * (t.val / 4 % 4) + q.val; rw [e1]; omega

/-- An entry of the array is in point `t`'s tile iff each coordinate is in the tile's range on its axis. -/
theorem mem_blk5 (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- Every entry of the array is in the tile some last-stretch point writes back. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 128 := N_0
  have htv : 16 * ((i 0).val / 1024) + 4 * ((i 1).val / 1024) + 3 < cfg0.N := by omega
  refine ⟨⟨16 * ((i 0).val / 1024) + 4 * ((i 1).val / 1024) + 3, htv⟩, (flush0_5 _).mpr (by dsimp only; omega), ?_⟩
  rw [mem_blk5]
  obtain ⟨e0, e1⟩ := idx5 ⟨16 * ((i 0).val / 1024) + 4 * ((i 1).val / 1024) + 3, htv⟩
  dsimp only at e0 e1
  intro a
  match a with
  | ⟨0, _⟩ =>
    show win0_5.index ⟨16 * ((i 0).val / 1024) + 4 * ((i 1).val / 1024) + 3, htv⟩ (0 : Fin 2) * 1024 ≤ (i 0).val
      ∧ (i 0).val < win0_5.index ⟨16 * ((i 0).val / 1024) + 4 * ((i 1).val / 1024) + 3, htv⟩ (0 : Fin 2) * 1024 + 1024
    rw [e0]; omega
  | ⟨1, _⟩ =>
    show win0_5.index ⟨16 * ((i 0).val / 1024) + 4 * ((i 1).val / 1024) + 3, htv⟩ (1 : Fin 2) * 1024 ≤ (i 1).val
      ∧ (i 1).val < win0_5.index ⟨16 * ((i 0).val / 1024) + 4 * ((i 1).val / 1024) + 3, htv⟩ (1 : Fin 2) * 1024 + 1024
    rw [e1]; omega

end Cert.KernelIdeal.Lora

end
-- ==== Proof.Value.lean ====
/-
  The kernel program's result, as one function of its arguments.

  Each last-stretch grid point writes its finished tile back into the 8192 × 4096 result array, and these tiles cover
  the array, so after the region the array is the specification's entry at every (row, column). The host's closing
  reshape to 4 × 2048 × 4096 keeps row-major positions: entry (β, s, o) is the array's entry at row 2048·β + s, and
  that row of the flattened activations is row s of batch β. So the program ends with its result buffer at the
  specification's result array, and with its argument arrays untouched.
-/
import proofs.«179416_j5506148073539_2_alg».proof.Proof.Tile
import proofs.«179416_j5506148073539_2_alg».proof.Proof.OutBlock
import proofs.«179416_j5506148073539_2_alg».proof.Proof.Result
import proofs.«179416_j5506148073539_2_alg».proof.Proof.RefSpec
import Idealize.ShloMosaic.Lib.Pipeline.Value
import Idealize.ShloMosaic.Lib.StableHlo.Run

set_option maxRecDepth 16384

noncomputable section

namespace Cert.KernelIdeal.Lora

open Cert.KernelIdeal Cert.KernelIdeal.Gen
open Idealize.ShloMosaic Idealize.ShloMosaic.TcCoe Idealize.ShloMosaic.Tactic Idealize.SL.Sem

open Cert.LoraSpec Idealize.ShloMosaic.ValueIdx Cert.KernelIdeal.LoraBlk

variable (m : (ℓ : Loc nD τ sig) → Buf (Elt Ideal) ℓ) (c : Dev nD)

/-- What a last-stretch point writes back is its tile of the result array. -/
theorem flushed_eq (t : Fin cfg0.N) (hf : (cfg0.win 5).flush t = true) :
    (dats m 0 c).flushed 5 t = ((cfg0.win 5).blk t).view.read (Elt Ideal) (G8 m c) := by
  have h3 : t.val % 4 = 3 := (flush0_5 t).mp hf
  show (cfg0.win 5).cut (grid0.coords t) ((dats m 0 c).after 5 t) = _
  rw [after0_5]
  funext y
  obtain ⟨p, q, rfl⟩ : ∃ (p q : Fin 1024), y = ix2 p q := ⟨y 0, y 1, eq_ix2 y⟩
  rw [read5]
  exact tile_eq m c t h3 p q

/-- The tiles written back cover the array, so after the region it holds the result array [8192, 4096]. -/
theorem final : (dats m 0 c).arrAt 5 cfg0.N = G8 m c :=
  (dats m 0 c).arrAt_eq_of_cover 5 (G8 m c) (flushed_eq m c) cover5

/-- Row `2048·β + s` of the flattened activations is row `s` of batch `β`. -/
theorem xrow_flat (β : Fin 4) (s : Fin 2048) (d : Fin 4096) (h : 2048 * β.val + s.val < 8192) :
    xrow m c ⟨2048 * β.val + s.val, h⟩ d = m ((c : Thread nD τ).loc main_arg0) (ix3 β s d) := by
  refine congrArg (m ((c : Thread nD τ).loc main_arg0)) (funext fun a => Fin.ext ?_)
  match a with
  | ⟨0, _⟩ => show (2048 * β.val + s.val) / 2048 = β.val; have := s.isLt; omega
  | ⟨1, _⟩ => show (2048 * β.val + s.val) % 2048 = s.val; have := s.isLt; omega
  | ⟨2, _⟩ => rfl

/-- The host's final reshape to [4, 2048, 4096] of the region's result array is the specification's result array. -/
theorem out_eq : shapeCast S4x2048x4096 (G8 m c) shapeCasts_S8192x4096_S4x2048x4096
    = result (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨β, s, o, rfl⟩ : ∃ (β : Fin 4) (s : Fin 2048) (o : Fin 4096), i = ix3 β s o := ⟨i 0, i 1, i 2, eq_ix3 i⟩
  rw [Cert.KernelIdeal.LoraTail.reshape_out, result_apply]
  show entry _ _ _ _ _ = _
  refine congrArg (fun x => entry x _ _ _ _) (funext fun d => ?_)
  exact xrow_flat m c β s d _

/-- What the program's result buffer holds after the host's last operation. -/
theorem tail_eq : Pipeline.afterTail₀ cfgs (dats m) 0 (V0 m) [hostOps1] c main_v9
    = shapeCast S4x2048x4096 (G8 m c) shapeCasts_S8192x4096_S4x2048x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = G8 m c := (Pipeline.withArrays_arr spec0 launch0.win.arr_inj c _ _ 5).trans (final m c)
  rw [e]
  rfl

/-- THE KERNEL PROGRAM'S RUN, read: every weakly fair execution ends with the result buffer at the specification's result
    array of the argument arrays, and the argument arrays as launched. -/
theorem run (ρ : Dev nD → PrngReg) :
    θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans ((tail_eq m c).trans (out_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Lora

end
-- ==== Proof.lean ====
/-
  A dense layer with a low-rank correction,  y = x·Wᵀ + b + 2·((x·Aᵀ)·Bᵀ),  computed two ways over the extended reals.

  The reference contracts the 4096-long axis in one piece. The kernel flattens the activations to 8192 rows, forms the
  down-projection x·Aᵀ on the host, and walks a grid of 8 × 4 output tiles; for each tile it sums the dense product over
  four consecutive stretches of 1024 positions onto a zero block, then adds the bias and twice the up-projected
  low-rank product, writes the tile back, and the host reshapes the array to 4 × 2048 × 4096.

  Entry by entry both are  (Σ_d x_d·w_d + β) + (Σ_ρ (Σ_d x_d·a_{ρ,d})·b_ρ)·2  with the same float pattern for 2: the
  only difference is the grouping of the long sum, and addition of extended reals is associative and commutative, so
  the four stretches' sums add up to the whole sum whatever the entries are — the inputs' finiteness is never used.
  The three programs' runs terminate without fault and leave the arguments unchanged; the idealized kernel is the
  kernel's own text read over the extended reals, so nothing is owed for that step.
-/
import proofs.«179416_j5506148073539_2_alg».proof.Defs
import proofs.«179416_j5506148073539_2_alg».proof.Proof.Gen.Kernel
import proofs.«179416_j5506148073539_2_alg».proof.Proof.Gen.Kernel.Frame
import proofs.«179416_j5506148073539_2_alg».proof.Proof.Gen.KernelIdeal
import proofs.«179416_j5506148073539_2_alg».proof.Proof.Gen.KernelIdeal.Frame
import proofs.«179416_j5506148073539_2_alg».proof.Proof.Gen.ReferenceIdeal
import proofs.«179416_j5506148073539_2_alg».proof.Proof.Gen.ReferenceIdeal.Run
import proofs.«179416_j5506148073539_2_alg».proof.Proof.Gen.ReferenceIdeal.Read
import proofs.«179416_j5506148073539_2_alg».proof.Proof.Gen.Pre_finite_inputs
import proofs.«179416_j5506148073539_2_alg».proof.Proof.Result
import proofs.«179416_j5506148073539_2_alg».proof.Proof.RefSpec
import proofs.«179416_j5506148073539_2_alg».proof.Proof.Value
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the specification's, index by index. -/
theorem ref_result (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (x3 : (⟨Cert.ReferenceIdeal.S16x4096, .f32⟩ : BufTy).Contents (Elt Ideal))
    (x4 : (⟨Cert.ReferenceIdeal.S4096x16, .f32⟩ : BufTy).Contents (Elt Ideal)) :
    Cert.ReferenceIdeal.Read.val_main_v8 (F := Ideal) x0 x1 x2 x3 x4 = Cert.LoraSpec.result x0 x1 x2 x3 x4 := by
  funext i
  obtain ⟨β, s, o, rfl⟩ : ∃ (β : Fin 4) (s : Fin 2048) (o : Fin 4096), i = ix3 β s o := ⟨i 0, i 1, i 2, eq_ix3 i⟩
  exact Cert.ReferenceIdeal.LoraRef.ref_entry x0 x1 x2 x3 x4 β s o

/-- The kernel as printed runs, and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the arguments both programs end with their result at the specification's result array
    of those arguments. -/
theorem algebraic : Cert.algebraic_KernelIdeal_ReferenceIdeal := by
  intro m ρ m' ρ' _ hagree
  refine ⟨_, Cert.KernelIdeal.Lora.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, ref_result, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
